-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x16 : Shape := ⟨2, ![128, 16]⟩
abbrev S288x128 : Shape := ⟨2, ![288, 128]⟩
abbrev S128 : Shape := ⟨1, ![128]⟩
abbrev S128x128 : Shape := ⟨2, ![128, 128]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S128x16 .f32) (main_arg2 : FVec F S288x128 .f32) (main_arg3 : FVec F S128 .f32) (main_arg4 : FVec F S128x128 .f32) (main_arg5 : FVec F S128 .f32) (main_arg6 : IVec S2x800000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S288x128 .f32 := Host.absf main_arg2
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S128x16 : Shape := ⟨2, ![128, 16]⟩
abbrev S288x128 : Shape := ⟨2, ![288, 128]⟩
abbrev S128 : Shape := ⟨1, ![128]⟩
abbrev S128x128 : Shape := ⟨2, ![128, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x16 : Shape := ⟨2, ![50000, 16]⟩
abbrev S50000x144 : Shape := ⟨2, ![50000, 144]⟩
abbrev S800000x1 : Shape := ⟨2, ![800000, 1]⟩
abbrev S800000x144 : Shape := ⟨2, ![800000, 144]⟩
abbrev S800000x288 : Shape := ⟨2, ![800000, 288]⟩
abbrev S800000x128 : Shape := ⟨2, ![800000, 128]⟩
abbrev S4096x288 : Shape := ⟨2, ![4096, 288]⟩
abbrev S4096x128 : Shape := ⟨2, ![4096, 128]⟩
abbrev S1x128 : Shape := ⟨2, ![1, 128]⟩

abbrev nBuf : Space → Nat
  | .hbm => 49
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S128x16, .f32⟩
  | .hbm, ⟨2, _⟩ => ⟨S288x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x16, .f32⟩
  | .hbm, ⟨21, _⟩ => ⟨S50000x144, .f32⟩
  | .hbm, ⟨22, _⟩ => ⟨S50000x144, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x144, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x144, .bf16⟩
  | .hbm, ⟨41, _⟩ => ⟨S800000x288, .bf16⟩
  | .hbm, ⟨42, _⟩ => ⟨S288x128, .bf16⟩
  | .hbm, ⟨43, _⟩ => ⟨S128x128, .bf16⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .local _ .vmem, ⟨0, _⟩ => ⟨S4096x288, .bf16⟩
  | .local _ .vmem, ⟨1, _⟩ => ⟨S4096x288, .bf16⟩
  | .local _ .vmem, ⟨2, _⟩ => ⟨S288x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S4096x128, .f32⟩
  | .local _ .vmem, ⟨7, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x16_S50000x144_d1 : Shape.Concatenates [S50000x128, S50000x16] S50000x144 1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x144_S800000x144_S800000x288_d1 : Shape.Concatenates [S800000x144, S800000x144] S800000x288 1
  inb_S4096x288_S4096x288_0_0 : ∀ a, (![0, 0] : Fin 2 → Nat) a + S4096x288.size a ≤ S4096x288.size a
  h_S4096x288 : 0 < S4096x288.numel
  shapeCasts_S4096x288_S4096x288 : S4096x288.ShapeCasts S4096x288
  inb_S288x128_S288x128_0_0 : ∀ a, (![0, 0] : Fin 2 → Nat) a + S288x128.size a ≤ S288x128.size a
  h_S288x128 : 0 < S288x128.numel
  shapeCasts_S288x128_S288x128 : S288x128.ShapeCasts S288x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  bcast_S_S50000x128 : S_.BroadcastsInDim S50000x128 (![] : Fin 0 → Fin S50000x128.rank)
  gather_S128x16_S50000x1_S50000x16_1_0_n_n_0_1_116_wf : GatherDims.WF S128x16 S50000x1 S50000x16 [1] [0] [] [0] [] 1 ![1, 16]
  gather_S50000x144_S800000x1_S800000x144_1_0_n_n_0_1_1144_wf : GatherDims.WF S50000x144 S800000x1 S800000x144 [1] [0] [] [0] [] 1 ![1, 144]
  dot_S4096x288_S288x128_S4096x128_1_0_0_1_n_n_wf : DotDims.WF S4096x288 S288x128 S4096x128 [1] [0] [0] [1] [] []
  dot_S4096x128_S128x128_S4096x128_1_0_0_1_n_n_wf : DotDims.WF S4096x128 S128x128 S4096x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x288.size a < S800000x288.size a
  hwx0_0 : ∀ i : grid0.Coords, EltTy.bits .bf16 = 32 ∨ (Rect.unit (s := S800000x288) (fun a => cc0_transform_0 i a * S4096x288.size a) (fun a => (Pipeline.Clip.of (cc0_transform_0 i a) (S4096x288.size a) (S800000x288.size a)).extent (S4096x288.size a)) fun a => Pipeline.Clip.inb (Pipeline.Clip.ok_of (hstart0_0 i a))).WholeWords (EltTy.packing .bf16)
  hwxs0_0 : ∀ i : grid0.Coords, EltTy.bits .bf16 = 32 ∨ (Rect.unit (s := S4096x288) (fun _ => 0) (fun a => (Pipeline.Clip.of (cc0_transform_0 i a) (S4096x288.size a) (S800000x288.size a)).extent (S4096x288.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x128.size a ≤ S288x128.size a
  hwx0_1 : ∀ i : grid0.Coords, EltTy.bits .bf16 = 32 ∨ (Rect.block (s := S288x128) S288x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4096x128.size a < S800000x128.size a
  hwx0_5 : ∀ i : grid0.Coords, EltTy.bits .f32 = 32 ∨ (Rect.unit (s := S800000x128) (fun a => cc0_transform_5 i a * S4096x128.size a) (fun a => (Pipeline.Clip.of (cc0_transform_5 i a) (S4096x128.size a) (S800000x128.size a)).extent (S4096x128.size a)) fun a => Pipeline.Clip.inb (Pipeline.Clip.ok_of (hstart0_5 i a))).WholeWords (EltTy.packing .f32)
  hwxs0_5 : ∀ i : grid0.Coords, EltTy.bits .f32 = 32 ∨ (Rect.unit (s := S4096x128) (fun _ => 0) (fun a => (Pipeline.Clip.of (cc0_transform_5 i a) (S4096x128.size a) (S800000x128.size a)).extent (S4096x128.size a)) fun a => (Nat.zero_add _).trans_le (Pipeline.Clip.extent_le (Pipeline.Clip.ok_of (hstart0_5 i a)))).WholeWords (EltTy.packing .f32)

variable [Facts₀]

def gather_S128x16_S50000x1_S50000x16_1_0_n_n_0_1_116 : GatherDims S128x16 S50000x1 S50000x16 where
  offsetDims := [1]
  collapsedSliceDims := [0]
  operandBatchingDims := []
  startIndicesBatchingDims := []
  startIndexMap := [0]
  indexVectorDim := 1
  sliceSizes := ![1, 16]
  wf := gather_S128x16_S50000x1_S50000x16_1_0_n_n_0_1_116_wf
def gather_S50000x144_S800000x1_S800000x144_1_0_n_n_0_1_1144 : GatherDims S50000x144 S800000x1 S800000x144 where
  offsetDims := [1]
  collapsedSliceDims := [0]
  operandBatchingDims := []
  startIndicesBatchingDims := []
  startIndexMap := [0]
  indexVectorDim := 1
  sliceSizes := ![1, 144]
  wf := gather_S50000x144_S800000x1_S800000x144_1_0_n_n_0_1_1144_wf
def dot_S4096x288_S288x128_S4096x128_1_0_0_1_n_n : DotDims S4096x288 S288x128 S4096x128 where
  lhsContracting := [1]
  rhsContracting := [0]
  lhsNonContracting := [0]
  rhsNonContracting := [1]
  lhsBatch := []
  rhsBatch := []
  wf := dot_S4096x288_S288x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpecClip (Memref.whole main_v27) S4096x288.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v28) S288x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v30) S4096x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x16 : Shape := ⟨2, ![128, 16]⟩
abbrev S288x128 : Shape := ⟨2, ![288, 128]⟩
abbrev S128 : Shape := ⟨1, ![128]⟩
abbrev S128x128 : Shape := ⟨2, ![128, 128]⟩
abbrev S2x800000 : Shape := ⟨2, ![2, 800000]⟩
abbrev S50000 : Shape := ⟨1, ![50000]⟩
abbrev S_ : Shape := ⟨0, ![]⟩
abbrev S50000x1 : Shape := ⟨2, ![50000, 1]⟩
abbrev S50000x16 : Shape := ⟨2, ![50000, 16]⟩
abbrev S50000x144 : Shape := ⟨2, ![50000, 144]⟩
abbrev S1x800000 : Shape := ⟨2, ![1, 800000]⟩
abbrev S800000 : Shape := ⟨1, ![800000]⟩
abbrev S800000x1 : Shape := ⟨2, ![800000, 1]⟩
abbrev S800000x144 : Shape := ⟨2, ![800000, 144]⟩
abbrev S800000x288 : Shape := ⟨2, ![800000, 288]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x16, .f32⟩
  | .hbm, ⟨2, _⟩ => ⟨S288x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x800000, .i32⟩
  | .hbm, ⟨7, _⟩ => ⟨S50000, .i32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x16, .f32⟩
  | .hbm, ⟨17, _⟩ => ⟨S50000x144, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x144, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x144, .f32⟩
  | .hbm, ⟨40, _⟩ => ⟨S800000x288, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x16_S50000x144_d1 : Shape.Concatenates [S50000x128, S50000x16] S50000x144 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x144_S800000x144_S800000x288_d1 : Shape.Concatenates [S800000x144, S800000x144] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  gather_S128x16_S50000x1_S50000x16_1_0_n_n_0_1_116_wf : GatherDims.WF S128x16 S50000x1 S50000x16 [1] [0] [] [0] [] 1 ![1, 16]
  gather_S50000x144_S800000x1_S800000x144_1_0_n_n_0_1_1144_wf : GatherDims.WF S50000x144 S800000x1 S800000x144 [1] [0] [] [0] [] 1 ![1, 144]
  dot_S800000x288_S288x128_S800000x128_1_0_0_1_n_n_wf : DotDims.WF S800000x288 S288x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def gather_S128x16_S50000x1_S50000x16_1_0_n_n_0_1_116 : GatherDims S128x16 S50000x1 S50000x16 where
  offsetDims := [1]
  collapsedSliceDims := [0]
  operandBatchingDims := []
  startIndicesBatchingDims := []
  startIndexMap := [0]
  indexVectorDim := 1
  sliceSizes := ![1, 16]
  wf := gather_S128x16_S50000x1_S50000x16_1_0_n_n_0_1_116_wf
def gather_S50000x144_S800000x1_S800000x144_1_0_n_n_0_1_1144 : GatherDims S50000x144 S800000x1 S800000x144 where
  offsetDims := [1]
  collapsedSliceDims := [0]
  operandBatchingDims := []
  startIndicesBatchingDims := []
  startIndexMap := [0]
  indexVectorDim := 1
  sliceSizes := ![1, 144]
  wf := gather_S50000x144_S800000x1_S800000x144_1_0_n_n_0_1_1144_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BodyKernel.lean ====
/-
  The edge-MLP kernel's body, run once on whole staging buffers, at any float instance.

  One grid point handles a slab of 4096 edges.  The body reads the slab's 4096 × 288 input rows, the two weight
  matrices and the two bias vectors whole, and stores ONE whole 4096 × 128 block:
      relu (rows · W1 + b1) · W2 + b2.
  Nothing else is written; the five input buffers are left as they were found.
-/
import proofs.«165750_j10943576670836_1_alg».proof.Proof.Gen.Kernel.Frame
import proofs.«165750_j10943576670836_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The rectangles the body reads and writes: each buffer whole -/

abbrev rIn : Rect S4096x288 := Rect.unit (s := S4096x288) ![0, 0] S4096x288.size inb_S4096x288_S4096x288_0_0
abbrev rW1 : Rect S288x128 := Rect.unit (s := S288x128) ![0, 0] S288x128.size inb_S288x128_S288x128_0_0
abbrev rB : Rect S128 := Rect.unit (s := S128) ![0] S128.size inb_S128_S128_0
abbrev rW2 : Rect S128x128 := Rect.unit (s := S128x128) ![0, 0] S128x128.size inb_S128x128_S128x128_0_0
abbrev rOut : Rect S4096x128 := Rect.unit (s := S4096x128) ![0, 0] S4096x128.size inb_S4096x128_S4096x128_0_0

/-- What the output buffer holds after the body, from the contents of the five input buffers: the one store's
    payload, read through the whole-buffer rectangle. -/
def outBlock (x0 : Vec F S4096x288 .bf16) (x1 : Vec F S288x128 .bf16) (x2 : Vec F S128 .f32) (x3 : Vec F S128x128 .bf16)
    (x4 : Vec F S128 .f32) : Vec F S4096x128 .f32 :=
  View.canon [⟨rOut, k0_pay1 (View.ld x0 rIn) (View.ld x1 rW1) (View.ld x2 rB) (View.ld x3 rW2) (View.ld x4 rB)⟩]

/-- The one store covers the output buffer. -/
theorem cover_out (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

set_option maxHeartbeats 1000000 in
/-- The body's triple: from the six buffers whole — the inputs at `x0 … x4`, the output at anything — the body runs
    to the inputs unchanged and the output at `outBlock x0 … x4`. -/
theorem sound_kernel (c : Dev nD) (E : Set ℕ) (i : grid0.Coords)
    (arg1 : Memref sig .tc .vmem S4096x288 .bf16) (harg1 : arg1.IsWhole) (arg2 : Memref sig .tc .vmem S288x128 .bf16) (harg2 : arg2.IsWhole)
    (arg3 : Memref sig .tc .vmem S128 .f32) (harg3 : arg3.IsWhole) (arg4 : Memref sig .tc .vmem S128x128 .bf16) (harg4 : arg4.IsWhole)
    (arg5 : Memref sig .tc .vmem S128 .f32) (harg5 : arg5.IsWhole) (arg6 : Memref sig .tc .vmem S4096x128 .f32) (harg6 : arg6.IsWhole)
    (x0 : Vec F S4096x288 .bf16) (x1 : Vec F S288x128 .bf16) (x2 : Vec F S128 .f32) (x3 : Vec F S128x128 .bf16) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Body

end
-- ==== Proof.FrameKernel.lean ====
/-
  The word-level kernel's frame: the program runs to the end, faults nowhere, and leaves its arguments unchanged.

  Nothing is claimed about the numbers the kernel computes here, so the proof data are RELATIONAL: the body leaves each
  of its five input buffers as it found it (whatever that was — the last edge slab's buffer holds unnamed words past the
  array's end), and leaves the output buffer at contents about which nothing is said.  The arguments are then unchanged
  because no host operation and no write-back touches them: two of them (the biases) are arrays the kernel only reads,
  the others are buffers the kernel's pipeline does not stage at all.
-/
import proofs.«165750_j10943576670836_1_alg».proof.Proof.BodyKernel

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; the body leaves every input buffer as it found
    it and the output buffer at anything; the class's invariant; nothing owed; full shares. -/
def rdats (c : Dev nD) : RDat τ (Elt F) Unit ℕ (UR sig nD τ) ℕ cfg0 c where
  A w := V m c (Pipeline.arrRef spec0 w)
  after w _ Y X := match w with
    | ⟨0, _⟩ => X = Y
    | ⟨1, _⟩ => X = Y
    | ⟨2, _⟩ => X = Y
    | ⟨3, _⟩ => X = Y
    | ⟨4, _⟩ => X = Y
    | ⟨5, _⟩ => True
  Φ _ := Pipeline.ΦA spec0 c
  q _ := fullShare
  owed _ := 0

theorem A_eq (c : Dev nD) (w : Fin cfg0.W) : (rdats m c).A w = V m c (Pipeline.arrRef spec0 w) := by
  dsimp only [rdats]

/-- The body at any point, on whatever the six buffers hold. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X)
            ∗ (∃ X, ⌜(rdats m c).after 5 t (Y 5) X⌝ ∗ owns (c : Thread nD τ) (st0_5 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  · iexists outBlock (Y 0) (Y 1) (Y 2) (Y 3) (Y 4); isplitr; · ipureintro; exact trivial
    iexact H5

/-- The library's relational body obligation. -/
theorem body_obligation (c : Dev nD) : (rdats m c).BodyObligation (defs₀ (F := F)) Variants.none () Set.univ := fun t Y _ => by
  rw [bigSep_W0, bigSep_W0]
  exact sound_body m c t Y

/-- The buffers the host operations after the kernel write. -/
abbrev tailWritten : Finset (Ref sig .tc) := {main_cst, main_v31, main_v32, main_v33}

theorem tail_writes : ∀ ops ∈ ([hostOps1] : List (List (HloOp τ sig (Elt F)))), ∀ op ∈ ops, ∀ b : Ref sig .tc,
    Proc.devRef .tc b ∈ op.writes → b ∈ tailWritten := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.ternary_writes, Finset.mem_singleton] at hb
    have e := Proc.devRef_injective (τ := τ) _ hb
    subst e
    decide

set_option backward.isDefEq.respectTransparency.types false in
/-- Every weakly fair execution terminates; every array of the kernel holds contents the relational data allow, and
    every other unscoped buffer the tail does not write what it held when the kernel was entered. -/
theorem run_main : θ_run defs (onTc (τ := τ) (main (F := F))) (s₀ m ρ)
    (RDat.FramePostR cfg0 (rdats m) tailWritten (fun c b => V0 m c (Proc.devRef .tc b))) :=
  Pipeline.RDat.θ_run_frame_around_T cfgs (0 : Fin 1) launch0 defs₀ Variants.none (rdats m) tailWritten m ρ main
    (hbody := fun c => body_obligation m c) (hshare := fun c => (rdats m c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have rest : ∀ (b : Ref sig .tc), b ∈ Pipeline.restRefs sig (cfgs 0).spec → b ∉ tailWritten →
        r.2.mem ((c.tc : Thread nD τ).loc b) = V m c b := fun b hb hn => (h c).2 b (Finset.mem_sdiff.mpr ⟨hb, hn⟩)
    have inp : ∀ (w : Fin cfg0.W), (cfg0.win w).isOut = false →
        r.2.mem ((cfg0.spec w).arr.view.loc (c.tc : Thread nD τ)) = V m c (Pipeline.arrRef spec0 w) := fun w hw => by
      have := (h c).1 w
      rw [RDat.ArrAt_in (rdats m c) w hw] at this
      exact this.trans (A_eq m c w)
    ⟨(rest main_arg0 (Pipeline.mem_restRefs_of main_arg0 (by decide) (by decide)) (by decide)).trans (V_main_arg0 m c),
     (rest main_arg1 (Pipeline.mem_restRefs_of main_arg1 (by decide) (by decide)) (by decide)).trans (V_main_arg1 m c),
     (rest main_arg2 (Pipeline.mem_restRefs_of main_arg2 (by decide) (by decide)) (by decide)).trans (V_main_arg2 m c),
     (inp 2 rfl).trans (V_main_arg3 m c),
     (rest main_arg4 (Pipeline.mem_restRefs_of main_arg4 (by decide) (by decide)) (by decide)).trans (V_main_arg4 m c),
     (inp 4 rfl).trans (V_main_arg5 m c),
     (rest main_arg6 (Pipeline.mem_restRefs_of main_arg6 (by decide) (by decide)) (by decide)).trans (V_main_arg6 m c),
     (rest main_arg7 (Pipeline.mem_restRefs_of main_arg7 (by decide) (by decide)) (by decide)).trans (V_main_arg7 m c)⟩)
    (run_main m ρ)

end Cert.Kernel.Run

end
-- ==== Proof.BodyIdeal.lean ====
/-
  The edge-MLP kernel's body, run once on whole staging buffers, at any float instance.

  One grid point handles a slab of 4096 edges.  The body reads the slab's 4096 × 288 input rows, the two weight
  matrices and the two bias vectors whole, and stores ONE whole 4096 × 128 block:
      relu (rows · W1 + b1) · W2 + b2.
  Nothing else is written; the five input buffers are left as they were found.
-/
import proofs.«165750_j10943576670836_1_alg».proof.Proof.Gen.KernelIdeal.Frame
import proofs.«165750_j10943576670836_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The rectangles the body reads and writes: each buffer whole -/

abbrev rIn : Rect S4096x288 := Rect.unit (s := S4096x288) ![0, 0] S4096x288.size inb_S4096x288_S4096x288_0_0
abbrev rW1 : Rect S288x128 := Rect.unit (s := S288x128) ![0, 0] S288x128.size inb_S288x128_S288x128_0_0
abbrev rB : Rect S128 := Rect.unit (s := S128) ![0] S128.size inb_S128_S128_0
abbrev rW2 : Rect S128x128 := Rect.unit (s := S128x128) ![0, 0] S128x128.size inb_S128x128_S128x128_0_0
abbrev rOut : Rect S4096x128 := Rect.unit (s := S4096x128) ![0, 0] S4096x128.size inb_S4096x128_S4096x128_0_0

/-- What the output buffer holds after the body, from the contents of the five input buffers: the one store's
    payload, read through the whole-buffer rectangle. -/
def outBlock (x0 : Vec F S4096x288 .bf16) (x1 : Vec F S288x128 .bf16) (x2 : Vec F S128 .f32) (x3 : Vec F S128x128 .bf16)
    (x4 : Vec F S128 .f32) : Vec F S4096x128 .f32 :=
  View.canon [⟨rOut, k0_pay1 (View.ld x0 rIn) (View.ld x1 rW1) (View.ld x2 rB) (View.ld x3 rW2) (View.ld x4 rB)⟩]

/-- The one store covers the output buffer. -/
theorem cover_out (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

set_option maxHeartbeats 1000000 in
/-- The body's triple: from the six buffers whole — the inputs at `x0 … x4`, the output at anything — the body runs
    to the inputs unchanged and the output at `outBlock x0 … x4`. -/
theorem sound_kernel (c : Dev nD) (E : Set ℕ) (i : grid0.Coords)
    (arg1 : Memref sig .tc .vmem S4096x288 .bf16) (harg1 : arg1.IsWhole) (arg2 : Memref sig .tc .vmem S288x128 .bf16) (harg2 : arg2.IsWhole)
    (arg3 : Memref sig .tc .vmem S128 .f32) (harg3 : arg3.IsWhole) (arg4 : Memref sig .tc .vmem S128x128 .bf16) (harg4 : arg4.IsWhole)
    (arg5 : Memref sig .tc .vmem S128 .f32) (harg5 : arg5.IsWhole) (arg6 : Memref sig .tc .vmem S4096x128 .f32) (harg6 : arg6.IsWhole)
    (x0 : Vec F S4096x288 .bf16) (x1 : Vec F S288x128 .bf16) (x2 : Vec F S128 .f32) (x3 : Vec F S128x128 .bf16) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Body

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibDenseLayer.lean ====
/-
  A dense layer read at an entry, over the extended reals, generic in the sizes.

  * `rowBias_apply`: a length-`B` vector cast to one row `[1, B]` and broadcast down `A` rows reads, at `(r, j)`,
    the vector's entry `j`.
  * `denseLayer_apply`: the matrix unit's product of an `A × K` by a `K × B` matrix into a zero accumulator, plus such
    a row bias, reads at `(r, j)` the sum over `k` of `l (r, k) · w (k, j)`, plus `b j`.
  * `hostDenseLayer_apply`: the same for the host's product, the bias broadcast by the host's two broadcasts.
-/
import proofs.«165750_j10943576670836_1_alg».proof.Proof.LibHostRead

noncomputable section

namespace Cert.LibDense

open Idealize.ShloMosaic Idealize.ShloMosaic.ValueIdx

/-- A vector cast to a one-row matrix and broadcast down the rows: entry `(r, j)` is the vector's entry `j`. -/
theorem rowBias_apply {α : Type} {A B : Nat} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (j : Fin B) :
    broadcastTo ⟨2, ![A, B]⟩ (shapeCast ⟨2, ![1, B]⟩ b h1) h2 (ix2 r j) = b (ix1 j) := by
  refine (broadcastTo_apply _ h2 (ix2 r j) (ix2 (0 : Fin 1) j) fun ax => ?_).trans ?_
  · match ax with
    | ⟨0, _⟩ => rfl
    | ⟨1, _⟩ =>
      show j.val = if B = 1 then 0 else j.val
      split
      · have := j.isLt; omega
      · rfl
  · refine shapeCast_apply b h1 _ _ ?_
    rw [Shape.rowMajor_val_two, Shape.rowMajor_val_one]
    show j.val = 0 * B + j.val
    omega

/-- The matrix unit's product into a zero accumulator plus a row bias, at `(r, j)`. -/
theorem denseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).ShapeCasts ⟨2, ![1, B]⟩) (h2 : (⟨2, ![1, B]⟩ : Shape).Broadcasts ⟨2, ![A, B]⟩)
    (r : Fin A) (j : Fin B) :
    FloatOps.matmul (F := Ideal) (φ₁ := φ₁) (φ₂ := φ₂) (Cert.LibHR.plainDotDims A K B wf) none l w
        (constant (F := Ideal) ⟨2, ![A, B]⟩ .f32 0x00000000#32) (ix2 r j)
      + broadcastTo ⟨2, ![A, B]⟩ (shapeCast ⟨2, ![1, B]⟩ b h1) h2 (ix2 r j)
      = (∑ k : Fin K, l (ix2 r k) * w (ix2 k j)) + b (ix1 j) := by
  rw [Cert.LibHR.plainMatmul_zero_apply, rowBias_apply]

/-- The host's product plus a row bias (the vector broadcast to one row, then down the rows), at `(r, j)`. -/
theorem hostDenseLayer_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (w : (⟨2, ![K, B]⟩ : Shape).Idx → EReal) (b : (⟨1, ![B]⟩ : Shape).Idx → EReal)
    (h1 : (⟨1, ![B]⟩ : Shape).BroadcastsInDim ⟨2, ![1, B]⟩ ![1]) (h2 : (⟨2, ![1, B]⟩ : Shape).BroadcastsInDim ⟨2, ![A, B]⟩ ![0, 1])
    (r : Fin A) (j : Fin B) :
    Host.dotGeneral (F := Ideal) (φ₁ := φ₁) (φ₂ := φ₂) (Cert.LibHR.plainDotDims A K B wf) none l w (ix2 r j)
      + broadcastInDim ⟨2, ![A, B]⟩ ![0, 1] h2 (broadcastInDim ⟨2, ![1, B]⟩ ![1] h1 b) (ix2 r j)
      = (∑ k : Fin K, l (ix2 r k) * w (ix2 k j)) + b (ix1 j) := by
  rw [Cert.LibHR.plainDot_apply, Cert.LibHR.bcastRow_apply]

end Cert.LibDense

end
-- ==== Proof.Spec.lean ====
/-
  The message function of one edge, as mathematics over the extended reals.

  An edge's input row `x` (288 numbers: the target node's 144 features, then the source node's) goes through a
  two-layer perceptron: `hidden k = max (∑ k', x k' · W1 (k', k) + b1 k) 0` for the 128 hidden units, then
  `msg j = ∑ k, hidden k · W2 (k, j) + b2 j` for the 128 outputs.  `mlp` is that function for a stack of `R` rows,
  entry `(r, j)`.  The zero the hidden layer is clamped at is kept as the float word both programs print, so the
  two sides meet without evaluating it.
-/
import Idealize.ShloMosaic.Lib.ValueIdx
import Idealize.ShloMosaic.PureOps.Ideal.Laws

noncomputable section

namespace Cert.EdgeMlp

open Idealize.ShloMosaic Idealize.ShloMosaic.ValueIdx

/-- Hidden unit `k` of row `r`: the first layer's affine map clamped below at zero. -/
def hiddenUnit {R : Nat} (x : (⟨2, ![R, 288]⟩ : Shape).Idx → EReal) (w1 : (⟨2, ![288, 128]⟩ : Shape).Idx → EReal)
    (b1 : (⟨1, ![128]⟩ : Shape).Idx → EReal) (r : Fin R) (k : Fin 128) : EReal :=
  max ((∑ k' : Fin 288, x (ix2 r k') * w1 (ix2 k' k)) + b1 (ix1 k)) (Ideal.ofBits .f32 0x00000000#32)

/-- Output `j` of row `r`: the second layer's affine map of the hidden units. -/
def mlp {R : Nat} (x : (⟨2, ![R, 288]⟩ : Shape).Idx → EReal) (w1 : (⟨2, ![288, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (j : Fin 128) : EReal :=
  (∑ k : Fin 128, hiddenUnit x w1 b1 r k * w2 (ix2 k j)) + b2 (ix1 j)

/-- The message of a row depends on that row of the input alone: two stacks that agree on row `r` / `r'`, with the
    same weights and biases, give the same message there. -/
theorem mlp_congr {R R' : Nat} (x : (⟨2, ![R, 288]⟩ : Shape).Idx → EReal) (x' : (⟨2, ![R', 288]⟩ : Shape).Idx → EReal)
    {w1 w1' : (⟨2, ![288, 128]⟩ : Shape).Idx → EReal} {b1 b1' : (⟨1, ![128]⟩ : Shape).Idx → EReal}
    {w2 w2' : (⟨2, ![128, 128]⟩ : Shape).Idx → EReal} {b2 b2' : (⟨1, ![128]⟩ : Shape).Idx → EReal} (r : Fin R) (r' : Fin R')
    (h : ∀ k' : Fin 288, x (ix2 r k') = x' (ix2 r' k')) (hw1 : w1 = w1') (hb1 : b1 = b1') (hw2 : w2 = w2') (hb2 : b2 = b2')
    (j : Fin 128) :
    mlp x w1 b1 w2 b2 r j = mlp x' w1' b1' w2' b2' r' j := by
  subst hw1 hb1 hw2 hb2
  unfold mlp hiddenUnit
  simp only [h]

end Cert.EdgeMlp

end
-- ==== Proof.PayloadIdeal.lean ====
/-
  The kernel body's output block, read at an entry, over the extended reals.

  At the ideal instance the block the body stores is the two-layer perceptron of `Spec.lean` applied to the input
  block's rows: entry `(r, j)` is `mlp x0 w1 b1 w2 b2 r j`.  The two roundings to bfloat16 are the identity there,
  the two products into a zero accumulator are plain sums, and a bias cast to one row and broadcast down the rows
  reads the bias entry of the column.  In particular row `r` of the output depends on row `r` of the input alone.
-/
import proofs.«165750_j10943576670836_1_alg».proof.Proof.BodyIdeal
import proofs.«165750_j10943576670836_1_alg».proof.Proof.LibDenseLayer
import proofs.«165750_j10943576670836_1_alg».proof.Proof.Spec
import Idealize.ShloMosaic.Lib.Pipeline.Value

set_option maxRecDepth 16384

noncomputable section

namespace Cert.KernelIdeal.Payload

open Cert.KernelIdeal Cert.KernelIdeal.Gen Cert.KernelIdeal.Body
open Idealize.ShloMosaic Idealize.ShloMosaic.ValueIdx Cert.EdgeMlp

theorem hz2 : (![0, 0] : Fin 2 → Nat) = fun _ => 0 := funext fun a => by fin_cases a <;> rfl
theorem hz1 : (![0] : Fin 1 → Nat) = fun _ => 0 := funext fun a => by fin_cases a; rfl

/-- The body's arithmetic at entry `(r, j)`: the perceptron of row `r`. -/
theorem pay_apply (x0 : FVec Ideal S4096x288 .bf16) (x1 : FVec Ideal S288x128 .bf16) (x2 : FVec Ideal S128 .f32)
    (x3 : FVec Ideal S128x128 .bf16) (x4 : FVec Ideal S128 .f32) (r : Fin 4096) (j : Fin 128) :
    k0_pay1 (F := Ideal) x0 x1 x2 x3 x4 (ix2 r j) = mlp x0 x1 x2 x3 x4 r j := by
  unfold k0_pay1
  simp only [shapeCast_self]
  refine (Cert.LibDense.denseLayer_apply (φ₁ := .bf16) (φ₂ := .bf16) 4096 128 128 _ _ x3 x4 _ _ r j).trans ?_
  unfold mlp
  refine congrArg (· + x4 (ix1 j)) (Finset.sum_congr rfl fun k _ => ?_)
  refine congrArg (· * x3 (ix2 k j)) ?_
  unfold hiddenUnit
  refine congrArg (max · (Ideal.ofBits .f32 0x00000000#32)) ?_
  exact Cert.LibDense.denseLayer_apply (φ₁ := .bf16) (φ₂ := .bf16) 4096 288 128 _ x0 x1 x2 _ _ r k

/-- The output block at entry `(r, j)`. -/
theorem outBlock_apply (x0 : FVec Ideal S4096x288 .bf16) (x1 : FVec Ideal S288x128 .bf16) (x2 : FVec Ideal S128 .f32)
    (x3 : FVec Ideal S128x128 .bf16) (x4 : FVec Ideal S128 .f32) (r : Fin 4096) (j : Fin 128) :
    outBlock (F := Ideal) x0 x1 x2 x3 x4 (ix2 r j) = mlp x0 x1 x2 x3 x4 r j := by
  unfold outBlock
  rw [View.canon_unit_zero hz2]
  simp only [View.ld_unit_zero (S := S4096x288) hz2, View.ld_unit_zero (S := S288x128) hz2, View.ld_unit_zero (S := S128) hz1,
    View.ld_unit_zero (S := S128x128) hz2]
  exact pay_apply x0 x1 x2 x3 x4 r j

end Cert.KernelIdeal.Payload

end
-- ==== Proof.FrameIdeal.lean ====
/-
  The idealized kernel's run, point by point: what each staging buffer holds after the body, the body's obligation,
  and the run of the whole program.

  The grid has 196 points; point `t` handles edges `4096 t … 4096 t + 4095`.  The last slab overhangs the 800000
  edges by 2816 rows: its fetch fills only the first 1280 rows of the input buffer with edges, the rest holding
  words nothing names, and its write-back writes only the first 1280 rows of the output buffer.  Because row `r` of
  the body's output depends on row `r` of its input alone, the rows written back do not depend on those unnamed words:
  this is what lets the output buffer's contents be NAMED (with the unnamed rows padded by a fixed word).
-/
import proofs.«165750_j10943576670836_1_alg».proof.Proof.PayloadIdeal

set_option maxRecDepth 16384

noncomputable section

namespace Cert.KernelIdeal.Run

open Cert.KernelIdeal Cert.KernelIdeal.Gen Cert.KernelIdeal.Body Cert.KernelIdeal.Payload Cert.EdgeMlp
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows of a slab inside the edge array -/

/-- The input slab and the output slab are cut alike along the edge axis, -/
theorem xsize_rows (i : grid0.Coords) : win0_5.xsize i 0 = win0_0.xsize i 0 := rfl
/-- and not at all along the feature axis. -/
theorem xsize_in_cols (i : grid0.Coords) : win0_0.xsize i 1 = 288 := rfl
theorem xsize_out_cols (i : grid0.Coords) : win0_5.xsize i 1 = 128 := rfl

/-- An entry of the output slab's part inside the array, as a row and a column of the whole slab. -/
def rowOf (i : grid0.Coords) (y : (win0_5.xblock i).Idx) : Fin 4096 := ⟨(y 0).val, Nat.lt_of_lt_of_le (y 0).isLt (win0_5.xsize_le i 0)⟩
def colOf (i : grid0.Coords) (y : (win0_5.xblock i).Idx) : Fin 128 := ⟨(y 1).val, Nat.lt_of_lt_of_le (y 1).isLt (win0_5.xsize_le i 1)⟩

theorem xinj_eq (i : grid0.Coords) (y : (win0_5.xblock i).Idx) : win0_5.xinj i y = ix2 (rowOf i y) (colOf i y) :=
  funext fun a => match a with
    | ⟨0, _⟩ => rfl
    | ⟨1, _⟩ => rfl

/-- The part of the output block that is written back, entry by entry: the perceptron of the input block's row. -/
theorem cut_out_apply (i : grid0.Coords) (x0 : FVec Ideal S4096x288 .bf16) (x1 : FVec Ideal S288x128 .bf16) (x2 : FVec Ideal S128 .f32)
    (x3 : FVec Ideal S128x128 .bf16) (x4 : FVec Ideal S128 .f32) (y : (win0_5.xblock i).Idx) :
    win0_5.cut i (outBlock (F := Ideal) x0 x1 x2 x3 x4) y = mlp x0 x1 x2 x3 x4 (rowOf i y) (colOf i y) := by
  show outBlock (F := Ideal) x0 x1 x2 x3 x4 (win0_5.xinj i y) = _
  rw [xinj_eq]
  exact outBlock_apply x0 x1 x2 x3 x4 _ _

/-- A row of the input slab inside the array holds what was fetched, whatever the buffer held before. -/
theorem fill_row (i : grid0.Coords) (d d' : FVec Ideal S4096x288 .bf16) (g : (win0_0.xblock i).Idx → Ideal .bf16)
    (r : Fin 4096) (hr : r.val < win0_0.xsize i 0) (k' : Fin 288) :
    win0_0.fill i d g (ix2 r k') = win0_0.fill i d' g (ix2 r k') := by
  have hm : win0_0.moved i (ix2 r k') = true := (win0_0.moved_iff i (ix2 r k')).mpr fun a => match a with
    | ⟨0, _⟩ => hr
    | ⟨1, _⟩ => (xsize_in_cols i).symm ▸ k'.isLt
  unfold Window.fill
  rw [dif_pos hm, dif_pos hm]

/-- So the rows written back do not depend on what the input buffer held past the array's end. -/
theorem cut_out_fill (i : grid0.Coords) (d d' : FVec Ideal S4096x288 .bf16) (g : (win0_0.xblock i).Idx → Ideal .bf16)
    (x1 : FVec Ideal S288x128 .bf16) (x2 : FVec Ideal S128 .f32) (x3 : FVec Ideal S128x128 .bf16) (x4 : FVec Ideal S128 .f32) :
    win0_5.cut i (outBlock (F := Ideal) (win0_0.fill i d g) x1 x2 x3 x4) = win0_5.cut i (outBlock (F := Ideal) (win0_0.fill i d' g) x1 x2 x3 x4) := by
  funext y
  rw [cut_out_apply, cut_out_apply]
  exact mlp_congr _ _ _ _ (fun k' => fill_row i d d' g _ ((xsize_rows i) ▸ (y 0).isLt) k') rfl rfl rfl rfl _

/-! ## The proof data -/

/-- The word the unnamed rows are padded with. -/
def pad : FVec Ideal S4096x288 .bf16 := fun _ => Scalar.ofBits .bf16 0#16

/-- The input slab at point `t`: the edges' rows inside the array, padded. -/
def inBlk (c : Dev nD) (t : Fin cfg0.N) : FVec Ideal S4096x288 .bf16 :=
  win0_0.fill (grid0.coords t) pad (iblk m c 0 t)

/-- The proof data of the one pipeline on core `c`: the arrays as the region finds them; after the body at point `t` each
    input's buffer at its block (the edge slab padded) and the output's at the body's block of those; the class's
    invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => inBlk m c t
    | ⟨1, _⟩ => iblk m c 1 t
    | ⟨2, _⟩ => iblk m c 2 t
    | ⟨3, _⟩ => iblk m c 3 t
    | ⟨4, _⟩ => iblk m c 4 t
    | ⟨5, _⟩ => outBlock (F := Ideal) (inBlk m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (F := Ideal) (inBlk m c t) (iblk m c 1 t) (iblk m c 2 t) (iblk m c 3 t) (iblk m c 4 t) := by dsimp only [dats]

/-- The edge slab is fetched at every point: its buffer holds the slab's rows inside the array, anything past them. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
/-- The weights and biases are fetched once and found in place at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The output's buffer is written back at every point: the body finds it at anything. -/
theorem before0_5 (c : Dev nD) (t : Fin cfg0.N) (d) : (dats m 0 c).before 5 t d = d :=
  Dat.before_out_reset (dats m 0 c) 5 rfl t
    (by by_cases h0 : t.val = 0
        · exact .inl h0
        · exact .inr ⟨h0, flush0_5 _⟩) d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two slabs' buffers are described on their rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- The body at any point: the buffers hold the slab (padded by anything), the weights and the biases; the body's
    triple applies; what it leaves agrees with the proof data on the rows inside the array. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold inBlk
    rw [Window.cut_fill]
    iexact H0
  isplitl [H1]; · iexact H1
  isplitl [H2]; · iexact H2
  isplitl [H3]; · iexact H3
  isplitl [H4]; · iexact H4
  · iexists outBlock (F := Ideal) (win0_0.fill (grid0.coords t) d0 (iblk m c 0 t)) (iblk m c 1 t) (iblk m c 2 t) (iblk m c 3 t) (iblk m c 4 t)
    unfold inBlk
    rw [win0_5.fill_congr_cut (grid0.coords t) (cut_out_fill (grid0.coords t) d0 pad (iblk m c 0 t) (iblk m c 1 t) (iblk m c 2 t) (iblk m c 3 t) (iblk m c 4 t))]
    iexact H5

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized program terminates; the kernel's arrays end at what the proof data say
    and every other buffer as the host operations after the kernel leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«165750_j10943576670836_1_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.LibLineStep.lean ====
/-
  One step of reading a straight line of host operations: the buffer the `k`-th operation writes, as that
  operation's function of the buffers it reads, whatever the operation's number of operands.
-/
import proofs.«165750_j10943576670836_1_alg».proof.Proof.LibHostLineMore

namespace Cert.Line

open Idealize.ShloMosaic Idealize.ShloMosaic.StableHlo Cert.CubePad.Line

/-- `line_step hW V k`: rewrite what the line leaves in the `k`-th operation's result buffer into that operation's function
    of what the line leaves in its operands (`hW`: the references the line writes, in order; `V`: the starting contents). -/
macro "line_step " hW:term:max V:term:max k:num : tactic =>
  `(tactic| first
    | rw [Cert.Line.binary_at $hW $V $k _ _ _ _ _ _ _ rfl (by decide) (by decide) (by decide)]
    | rw [Cert.CubePad.Line.Writes.unary_at $hW $V $k _ _ _ _ _ rfl (by decide) (by decide)]
    | rw [Cert.Line.ternary_at $hW $V $k _ _ _ _ _ _ _ _ _ rfl (by decide) (by decide) (by decide) (by decide)]
    | rw [Cert.CubePad.Line.Writes.reshape_at $hW $V $k _ _ _ _ _ _ rfl (by decide) (by decide)]
    | rw [Cert.Line.nullary_at $hW $V $k _ _ _ rfl (by decide)])

end Cert.Line
-- ==== Proof.GlueKernel.lean ====
/-
  What the host leaves in the buffers the edge kernel reads, as functions of the arguments (any float instance).

  * `nodeFeat x s b`: each node's 144 features — its 128 own numbers, then the 16 numbers of its graph's row of `s`,
    the graph picked by the node's entry of `b` (a negative entry counted from the end) — rounded to bfloat16.
  * `endpoint off e`: one row of the 2 × E edge table as a vector of E node numbers.
  * `msgIn x s e b`: per edge, the target node's features followed by the source node's: the kernel's 800000 × 288 operand.
  The weight matrices reach the kernel rounded to bfloat16.
-/
import proofs.«165750_j10943576670836_1_alg».proof.Proof.Gen.KernelIdeal.Launch
import proofs.«165750_j10943576670836_1_alg».proof.Proof.LibLineStep

set_option maxRecDepth 16384

noncomputable section

namespace Cert.KernelIdeal.Glue

open Cert.KernelIdeal Cert.KernelIdeal.Gen
open Idealize.ShloMosaic Idealize.ShloMosaic.StableHlo Idealize.SL.Sem Cert.CubePad.Line Cert.Line

variable {F : FTy → Type} [FloatOps F]

/-- A node's graph number, a negative one counted from the end of the 128 graphs. -/
def graphOf (b : (⟨S50000, .i32⟩ : BufTy).Contents (Elt F)) : (⟨S50000, .i32⟩ : BufTy).Contents (Elt F) :=
  select (cmpi .slt b (broadcastInDim S50000 ![] bcast_S_S50000 (constantI S_ 32 0#32)))
    (addi b (broadcastInDim S50000 ![] bcast_S_S50000 (constantI S_ 32 128#32))) b

/-- Each node's features: its own 128 numbers, then its graph's 16; rounded to bfloat16. -/
def nodeFeat (x : (⟨S50000x128, .f32⟩ : BufTy).Contents (Elt F)) (s : (⟨S128x16, .f32⟩ : BufTy).Contents (Elt F))
    (b : (⟨S50000, .i32⟩ : BufTy).Contents (Elt F)) : (⟨S50000x144, .bf16⟩ : BufTy).Contents (Elt F) :=
  truncf .bf16 (concatenate S50000x144 1 [⟨S50000x128, x⟩, ⟨S50000x16,
    Host.gather gather_S128x16_S50000x1_S50000x16_1_0_n_n_0_1_116 s (broadcastInDim S50000x1 ![0] bcast_S50000_S50000x1_0 (graphOf b))⟩]
    concatenates_S50000x128_S50000x16_S50000x144_d1) bitsLt_bf16_f32

/-- One row of the edge table, as a vector. -/
def endpoint (off : Fin 2 → Nat) (h : S2x800000.Slices off S1x800000) (e : (⟨S2x800000, .i32⟩ : BufTy).Contents (Elt F)) :
    (⟨S800000, .i32⟩ : BufTy).Contents (Elt F) :=
  shapeCast S800000 (extractStridedSlice S1x800000 off e h) shapeCasts_S1x800000_S800000

/-- A node number, a negative one counted from the end of the 50000 nodes, as a one-column index table. -/
def nodeIdx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Per edge: the target node's features, then the source node's. -/
def msgIn (x : (⟨S50000x128, .f32⟩ : BufTy).Contents (Elt F)) (s : (⟨S128x16, .f32⟩ : BufTy).Contents (Elt F))
    (e : (⟨S2x800000, .i32⟩ : BufTy).Contents (Elt F)) (b : (⟨S50000, .i32⟩ : BufTy).Contents (Elt F)) :
    (⟨S800000x288, .bf16⟩ : BufTy).Contents (Elt F) :=
  concatenate S800000x288 1
    [⟨S800000x144, Host.gather gather_S50000x144_S800000x1_S800000x144_1_0_n_n_0_1_1144 (nodeFeat x s b)
        (nodeIdx (endpoint ![1, 0] slices_S2x800000_S1x800000_1_0 e))⟩,
     ⟨S800000x144, Host.gather gather_S50000x144_S800000x1_S800000x144_1_0_n_n_0_1_1144 (nodeFeat x s b)
        (nodeIdx (endpoint ![0, 0] slices_S2x800000_S1x800000_0_0 e))⟩]
    concatenates_S800000x144_S800000x144_S800000x288_d1

/-- The references the host operations before the kernel write, in order. -/
abbrev written0 : List (Ref sig .tc) :=
  [main_v0, main_v1, main_v2, main_v3, main_c, main_v4, main_v5, main_c_0, main_v6, main_v7, main_v8, main_v9, main_v10, main_v11,
   main_v12, main_c_1, main_v13, main_v14, main_c_2, main_v15, main_v16, main_v17, main_v18, main_v19, main_c_3, main_v20, main_v21,
   main_c_4, main_v22, main_v23, main_v24, main_v25, main_v26, main_v27, main_v28, main_v29]

theorem writes0 : Writes (hostOps0 (F := F)) written0 := by line_writes

variable (V : Valuation τ sig (Elt F))

/-- The target-node row of the edge table, as the host leaves it. -/
theorem v3_eq : after hostOps0 V (Proc.devRef .tc main_v3) = endpoint ![1, 0] slices_S2x800000_S1x800000_1_0 (V (Proc.devRef .tc main_arg6)) := by
  line_step writes0 V 3
  line_step writes0 V 2
  rw [Writes.arg writes0 V (by decide)]
  rfl

/-- The kernel's first operand. -/
theorem v27_eq : after hostOps0 V (Proc.devRef .tc main_v27)
    = msgIn (V (Proc.devRef .tc main_arg0)) (V (Proc.devRef .tc main_arg1)) (V (Proc.devRef .tc main_arg6)) (V (Proc.devRef .tc main_arg7)) := by
  line_step writes0 V 33
  line_step writes0 V 32
  line_step writes0 V 31
  line_step writes0 V 30
  line_step writes0 V 29
  line_step writes0 V 28
  line_step writes0 V 27
  line_step writes0 V 26
  line_step writes0 V 25
  line_step writes0 V 24
  line_step writes0 V 23
  line_step writes0 V 22
  line_step writes0 V 21
  line_step writes0 V 20
  line_step writes0 V 19
  line_step writes0 V 18
  line_step writes0 V 17
  line_step writes0 V 16
  line_step writes0 V 15
  line_step writes0 V 14
  line_step writes0 V 13
  line_step writes0 V 12
  line_step writes0 V 11
  line_step writes0 V 10
  line_step writes0 V 9
  line_step writes0 V 8
  line_step writes0 V 7
  line_step writes0 V 6
  line_step writes0 V 5
  line_step writes0 V 4
  line_step writes0 V 3
  line_step writes0 V 2
  line_step writes0 V 1
  line_step writes0 V 0
  rw [Writes.arg writes0 V (r := main_arg0) (by decide), Writes.arg writes0 V (r := main_arg1) (by decide),
    Writes.arg writes0 V (r := main_arg6) (by decide), Writes.arg writes0 V (r := main_arg7) (by decide)]
  rfl

/-- The two weight matrices reach the kernel rounded to bfloat16. -/
theorem v28_eq : after hostOps0 V (Proc.devRef .tc main_v28) = truncf .bf16 (V (Proc.devRef .tc main_arg2)) bitsLt_bf16_f32 := by
  line_step writes0 V 34
  rw [Writes.arg writes0 V (by decide)]
theorem v29_eq : after hostOps0 V (Proc.devRef .tc main_v29) = truncf .bf16 (V (Proc.devRef .tc main_arg4)) bitsLt_bf16_f32 := by
  line_step writes0 V 35
  rw [Writes.arg writes0 V (by decide)]

end Cert.KernelIdeal.Glue

end
-- ==== Proof.ValueIdeal.lean ====
/-
  What the idealized kernel program computes: the message array the kernel writes, as one function of the arrays the
  kernel reads, and the program's result as the host's aggregation of it.

  Point `t` writes back rows `4096 t … ` of the message array — all 4096 of them, except the last point, which writes
  the 1280 rows up to the array's end.  Each written row is the perceptron of the same row of the edges' input array,
  so each point writes ITS rows of one whole-array function; the points' rows cover the 800000 edges.
-/
import proofs.«165750_j10943576670836_1_alg».proof.Proof.FrameIdeal
import proofs.«165750_j10943576670836_1_alg».proof.Proof.GlueKernel

set_option maxRecDepth 16384

noncomputable section

namespace Cert.KernelIdeal.Final

open Cert.KernelIdeal Cert.KernelIdeal.Gen Cert.KernelIdeal.Body Cert.KernelIdeal.Payload Cert.KernelIdeal.Run Cert.EdgeMlp
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.CubePad.Line Cert.Line

variable (m : (ℓ : Loc nD τ sig) → Buf (Elt Ideal) ℓ) (ρ : Dev nD → PrngReg)

/-! ## The schedule, decided over the grid -/

/-- Point `t` handles slab `t`; the weights and biases are whole blocks; the slab's rows inside the array end where the
    slab or the array ends. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ t.val * 4096 + win0_5.xsize (grid0.coords t) (0 : Fin 2) = min (t.val * 4096 + 4096) 800000 :=
  (by decide +kernel : ∀ t : Fin grid0.N, _)

/-! ## The blocks, read off the arrays -/

/-- The weights and biases are fetched whole: their blocks are the arrays. -/
theorem iblk1_eq (c : Dev nD) (t : Fin cfg0.N) : iblk m c 1 t = V m c main_v28 := by
  obtain ⟨-, -, -, -, e0, e1, -⟩ := idx_facts t
  funext z
  show V m c main_v28 (((cfg0.win 1).blk t).view.emb z) = V m c main_v28 z
  refine congrArg (V m c main_v28) (funext fun a => Fin.ext ?_)
  match a with
  | ⟨0, _⟩ => show win0_1.index t (0 : Fin 2) * 288 + 1 * (z 0).val = (z 0).val; omega
  | ⟨1, _⟩ => show win0_1.index t (1 : Fin 2) * 128 + 1 * (z 1).val = (z 1).val; omega
theorem iblk2_eq (c : Dev nD) (t : Fin cfg0.N) : iblk m c 2 t = V m c main_arg3 := by
  obtain ⟨-, -, -, -, -, -, e0, -⟩ := idx_facts t
  funext z
  show V m c main_arg3 (((cfg0.win 2).blk t).view.emb z) = V m c main_arg3 z
  refine congrArg (V m c main_arg3) (funext fun a => Fin.ext ?_)
  match a with
  | ⟨0, _⟩ => show win0_2.index t (0 : Fin 1) * 128 + 1 * (z 0).val = (z 0).val; omega
theorem iblk3_eq (c : Dev nD) (t : Fin cfg0.N) : iblk m c 3 t = V m c main_v29 := by
  obtain ⟨-, -, -, -, -, -, -, e0, e1, -⟩ := idx_facts t
  funext z
  show V m c main_v29 (((cfg0.win 3).blk t).view.emb z) = V m c main_v29 z
  refine congrArg (V m c main_v29) (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega
theorem iblk4_eq (c : Dev nD) (t : Fin cfg0.N) : iblk m c 4 t = V m c main_arg5 := by
  obtain ⟨-, -, -, -, -, -, -, -, -, e0, -⟩ := idx_facts t
  funext z
  show V m c main_arg5 (((cfg0.win 4).blk t).view.emb z) = V m c main_arg5 z
  refine congrArg (V m c main_arg5) (funext fun a => Fin.ext ?_)
  match a with
  | ⟨0, _⟩ => show win0_4.index t (0 : Fin 1) * 128 + 1 * (z 0).val = (z 0).val; omega

/-- A row of the padded edge slab inside the array is the edges' array's row `4096 t + r`. -/
theorem inBlk_row (c : Dev nD) (t : Fin cfg0.N) (r : Fin 4096) (hr : r.val < win0_0.xsize (grid0.coords t) 0)
    (e : Fin 800000) (he : e.val = t.val * 4096 + r.val) (k' : Fin 288) :
    inBlk m c t (ix2 r k') = V m c main_v27 (ix2 e k') := by
  obtain ⟨e0, e1, -⟩ := idx_facts t
  have hm : win0_0.moved (grid0.coords t) (ix2 r k') = true := (win0_0.moved_iff (grid0.coords t) (ix2 r k')).mpr fun a => match a with
    | ⟨0, _⟩ => hr
    | ⟨1, _⟩ => (xsize_in_cols (grid0.coords t)).symm ▸ k'.isLt
  unfold inBlk Window.fill
  rw [dif_pos hm]
  show V m c main_v27 (((cfg0.win 0).blk t).view.emb _) = V m c main_v27 (ix2 e k')
  refine congrArg (V m c main_v27) (funext fun a => Fin.ext ?_)
  match a with
  | ⟨0, _⟩ => show win0_0.index t (0 : Fin 2) * 4096 + 1 * r.val = e.val; omega
  | ⟨1, _⟩ => show win0_0.index t (1 : Fin 2) * 288 + 1 * k'.val = k'.val; omega

/-! ## The message array -/

/-- The messages of all 800000 edges: the perceptron of each row of the edges' input array, with the weights and biases
    as the kernel finds them. -/
def msgArr (c : Dev nD) : S800000x128.Idx → EReal := fun i =>
  mlp (R := 800000) (V m c main_v27) (V m c main_v28) (V m c main_arg3) (V m c main_v29) (V m c main_arg5)
    ⟨(i 0).val, (i 0).isLt⟩ ⟨(i 1).val, (i 1).isLt⟩

/-- WHAT POINT `t` WRITES BACK is its rows of the message array. -/
theorem flushed_eq (c : Dev nD) (t : Fin cfg0.N) :
    (dats m 0 c).flushed 5 t = ((cfg0.win 5).blk t).view.read (Elt Ideal) (msgArr m c) := by
  show win0_5.cut (grid0.coords t) ((dats m 0 c).after 5 t) = _
  rw [after0_5]
  obtain ⟨-, -, e2, e3, -⟩ := idx_facts t
  funext y
  rw [cut_out_apply]
  show _ = msgArr m c (((cfg0.win 5).blk t).view.emb y)
  unfold msgArr
  have h0 : ((((cfg0.win 5).blk t).view.emb y) 0).val = t.val * 4096 + (y 0).val := by
    show win0_5.index t (0 : Fin 2) * 4096 + 1 * (y 0).val = _; omega
  have h1 : ((((cfg0.win 5).blk t).view.emb y) 1).val = (y 1).val := by
    show win0_5.index t (1 : Fin 2) * 128 + 1 * (y 1).val = _; omega
  have hj : colOf (grid0.coords t) y = ⟨((((cfg0.win 5).blk t).view.emb y) 1).val, ((((cfg0.win 5).blk t).view.emb y) 1).isLt⟩ :=
    Fin.ext h1.symm
  rw [← hj]
  exact mlp_congr _ _ _ _ (fun k' => inBlk_row m c t _ ((xsize_rows (grid0.coords t)) ▸ (y 0).isLt) _ h0 k')
    (iblk1_eq m c t) (iblk2_eq m c t) (iblk3_eq m c t) (iblk4_eq m c t) _

/-- An index of the message array is among point `t`'s rows iff its row is. -/
theorem mem_blk (t : Fin cfg0.N) (i : S800000x128.Idx) :
    i ∈ ((cfg0.win 5).blk t).view.set ↔ ∀ a : Fin 2, win0_5.index t a * S4096x128.size a ≤ (i a).val
      ∧ (i a).val < win0_5.index t a * S4096x128.size a + win0_5.xsize (grid0.coords t) a := by
  show i ∈ ((View.whole main_v30).slice (win0_5.rect t)).set ↔ _
  rw [View.set_slice_whole, Rect.mem_set_unit]
  exact Iff.rfl

/-- Edge `n` lies in slab `n / 4096`, before that slab's end and the array's. -/
theorem slab_arith (n : Nat) (h : n < 800000) :
    (n / 4096) * 4096 ≤ n ∧ n < min ((n / 4096) * 4096 + 4096) 800000 ∧ n / 4096 < 196 := by omega

/-- Every edge's row is among the rows of the point of its slab. -/
theorem cover (i : S800000x128.Idx) : ∃ t : Fin cfg0.N, (cfg0.win 5).flush t = true ∧ i ∈ ((cfg0.win 5).blk t).view.set := by
  obtain ⟨hlo, hhi, hlt⟩ := slab_arith (i 0).val (i 0).isLt
  obtain ⟨t, ht⟩ : ∃ t : Fin cfg0.N, t.val = (i 0).val / 4096 :=
    ⟨⟨(i 0).val / 4096, by rw [show cfg0.N = 196 from N_0]; exact hlt⟩, rfl⟩
  obtain ⟨-, -, e2, e3, -, -, -, -, -, -, e10⟩ := idx_facts t
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + win0_5.xsize (grid0.coords t) (0 : Fin 2)
    rw [e2, e10, ht]
    exact ⟨hlo, hhi⟩
  | ⟨1, _⟩ =>
    show win0_5.index t (1 : Fin 2) * 128 ≤ (i 1).val ∧ (i 1).val < win0_5.index t (1 : Fin 2) * 128 + win0_5.xsize (grid0.coords t) (1 : Fin 2)
    rw [e3, xsize_out_cols, Nat.zero_mul, Nat.zero_add]
    exact ⟨Nat.zero_le _, (i 1).isLt⟩

/-- THE MESSAGE ARRAY after the run. -/
theorem final5 (c : Dev nD) : (dats m 0 c).arrAt 5 cfg0.N = msgArr m c :=
  (dats m 0 c).arrAt_eq_of_cover 5 (msgArr m c) (fun t _ => flushed_eq m c t) (cover)

end Cert.KernelIdeal.Final

end
-- ==== Proof.ResultIdeal.lean ====
/-
  The idealized kernel program's result, as a function of its arguments: the host's aggregation (per node, the sum of
  the messages of the edges pointing at it) of the message array the kernel wrote, whose rows are the perceptron of the
  rows the host gathered — the target node's features, then the source node's.
-/
import proofs.«165750_j10943576670836_1_alg».proof.Proof.ValueIdeal

set_option maxRecDepth 16384

noncomputable section

namespace Cert.KernelIdeal.Result

open Cert.KernelIdeal Cert.KernelIdeal.Gen Cert.KernelIdeal.Run Cert.KernelIdeal.Final Cert.KernelIdeal.Glue Cert.EdgeMlp
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.CubePad.Line Cert.Line

variable {F : FTy → Type} [FloatOps F]

/-- Per node: the sum of the messages of the edges pointing at it (`msg` the 800000 × 128 messages). -/
def aggregate (e : (⟨S2x800000, .i32⟩ : BufTy).Contents (Elt F)) (msg : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (endpoint ![1, 0] slices_S2x800000_S1x800000_1_0 e)) msg

/-- The references the host operations after the kernel write, in order. -/
abbrev written1 : List (Ref sig .tc) := [main_cst, main_v31, main_v32, main_v33]

theorem writes1 : Writes (hostOps1 (F := F)) written1 := by line_writes

/-- The result buffer after the host operations that follow the kernel, from what they find in the message array and in
    the target-node row. -/
theorem tail_eq (W : Valuation τ sig (Elt F)) : after hostOps1 W (Proc.devRef .tc main_v33)
    = Host.scatterAdd scatter_S50000x128_S800000x1_S800000x128_1_0_0_1
        (broadcastInDim S50000x128 ![] bcast_S_S50000x128 (constant S_ .f32 0x00000000#32))
        (broadcastInDim S800000x1 ![0] bcast_S800000_S800000x1_0 (W (Proc.devRef .tc main_v3))) (W (Proc.devRef .tc main_v30)) := by
  line_step writes1 W 3
  line_step writes1 W 2
  line_step writes1 W 1
  line_step writes1 W 0
  rw [Writes.arg writes1 W (r := main_v3) (by decide), Writes.arg writes1 W (r := main_v30) (by decide)]

variable (m : (ℓ : Loc nD τ sig) → Buf (Elt Ideal) ℓ)

/-- The arrays the kernel reads, as the host operations before it leave them. -/
theorem V_v27 (c : Dev nD) : V m c main_v27 = msgIn (m ((c.tc : Thread nD τ).loc main_arg0)) (m ((c.tc : Thread nD τ).loc main_arg1))
    (m ((c.tc : Thread nD τ).loc main_arg6)) (m ((c.tc : Thread nD τ).loc main_arg7)) := by
  show StableHlo.after hostOps0 (fun b => m (c, b)) (Proc.devRef .tc main_v27) = _
  exact v27_eq _
theorem V_v28 (c : Dev nD) : V m c main_v28 = m ((c.tc : Thread nD τ).loc main_arg2) := by
  show StableHlo.after hostOps0 (fun b => m (c, b)) (Proc.devRef .tc main_v28) = _
  exact v28_eq _
theorem V_v29 (c : Dev nD) : V m c main_v29 = m ((c.tc : Thread nD τ).loc main_arg4) := by
  show StableHlo.after hostOps0 (fun b => m (c, b)) (Proc.devRef .tc main_v29) = _
  exact v29_eq _
theorem V_v3 (c : Dev nD) : V m c main_v3 = endpoint ![1, 0] slices_S2x800000_S1x800000_1_0 (m ((c.tc : Thread nD τ).loc main_arg6)) := by
  show StableHlo.after hostOps0 (fun b => m (c, b)) (Proc.devRef .tc main_v3) = _
  exact v3_eq _

/-- THE RESULT of the idealized kernel program. -/
theorem result_eq (c : Dev nD) :
    Pipeline.afterTail₀ cfgs (dats m) 0 (V0 m) [hostOps1] c main_v33
      = aggregate (m ((c.tc : Thread nD τ).loc main_arg6)) (msgArr m c) := by
  unfold Pipeline.afterTail₀
  show StableHlo.after hostOps1 _ (Proc.devRef .tc main_v33) = _
  rw [tail_eq]
  have h30 : Pipeline.withArrays (cfgs 0).spec c (V0 m c) (fun w => (dats m 0 c).arrAt w (cfgs 0).N) (Proc.devRef .tc main_v30)
      = (dats m 0 c).arrAt 5 cfg0.N := Pipeline.withArrays_arr spec0 launch0.win.arr_inj c (V0 m c) _ 5
  have h3 : Pipeline.withArrays (cfgs 0).spec c (V0 m c) (fun w => (dats m 0 c).arrAt w (cfgs 0).N) (Proc.devRef .tc main_v3)
      = V m c main_v3 := Pipeline.withArrays_of_ne _ c (V0 m c) _ main_v3 (by decide)
  rw [h30, h3, final5, V_v3]
  rfl

/-- The arguments end as launched: the biases are arrays the kernel only reads; the others no operation writes. -/
theorem args_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).1 2).trans (((dats m 0 c).arrAt_in 2 rfl _).trans ((A_eq m c 2).trans (V_main_arg3 m c))),
   ((h c).2 main_arg4 (Pipeline.mem_restRefs_of main_arg4 (by decide) (by decide))).trans (W_main_arg4 m (dats m) c),
   ((h c).1 4).trans (((dats m 0 c).arrAt_in 4 rfl _).trans ((A_eq m c 4).trans (V_main_arg5 m c))),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c)⟩

/-- The result buffer ends at the aggregation of the message array. -/
theorem result_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v33) = aggregate (m ((c.tc : Thread nD τ).loc main_arg6)) (msgArr m c) :=
  ((h c).2 main_v33 (Pipeline.mem_restRefs_of main_v33 (by decide) (by decide))).trans (result_eq m c)

end Cert.KernelIdeal.Result

end
-- ==== Proof.GlueRef.lean ====
/-
  What the reference computes, as one function of the arguments (any float instance), read off its line of host
  operations one operation at a time.

  * `nodeFeat x s b`: each node's 144 features — its 128 own numbers, then its graph's 16 (graph picked by `b`, a negative
    entry counted from the end).
  * `msgIn x s e b`: per edge, the target node's features followed by the source node's (800000 × 288).
  * `msgOut …`: per edge, `relu (msgIn · W1 + b1) · W2 + b2` (800000 × 128).
  * `result …`: per node, the sum of the messages of the edges that point at it.
-/
import proofs.«165750_j10943576670836_1_alg».proof.Proof.RefRunP
import proofs.«165750_j10943576670836_1_alg».proof.Proof.LibLineStep

set_option maxRecDepth 16384

noncomputable section

namespace Cert.ReferenceIdeal.Glue

open Cert.ReferenceIdeal Cert.ReferenceIdeal.Gen Cert.ReferenceIdeal.ValueP
open Idealize.ShloMosaic Idealize.ShloMosaic.StableHlo Idealize.SL.Sem Cert.CubePad.Line Cert.Line

variable {F : FTy → Type} [FloatOps F]

/-- A node's graph number, a negative one counted from the end of the 128 graphs. -/
def graphOf (b : (⟨S50000, .i32⟩ : BufTy).Contents (Elt F)) : (⟨S50000, .i32⟩ : BufTy).Contents (Elt F) :=
  select (cmpi .slt b (broadcastInDim S50000 ![] bcast_S_S50000 (constantI S_ 32 0#32)))
    (addi b (broadcastInDim S50000 ![] bcast_S_S50000 (constantI S_ 32 128#32))) b

/-- Each node's features: its own 128 numbers, then its graph's 16. -/
def nodeFeat (x : (⟨S50000x128, .f32⟩ : BufTy).Contents (Elt F)) (s : (⟨S128x16, .f32⟩ : BufTy).Contents (Elt F))
    (b : (⟨S50000, .i32⟩ : BufTy).Contents (Elt F)) : (⟨S50000x144, .f32⟩ : BufTy).Contents (Elt F) :=
  concatenate S50000x144 1 [⟨S50000x128, x⟩, ⟨S50000x16,
    Host.gather gather_S128x16_S50000x1_S50000x16_1_0_n_n_0_1_116 s (broadcastInDim S50000x1 ![0] bcast_S50000_S50000x1_0 (graphOf b))⟩]
    concatenates_S50000x128_S50000x16_S50000x144_d1

/-- One row of the edge table, as a vector. -/
def endpoint (off : Fin 2 → Nat) (h : S2x800000.Slices off S1x800000) (e : (⟨S2x800000, .i32⟩ : BufTy).Contents (Elt F)) :
    (⟨S800000, .i32⟩ : BufTy).Contents (Elt F) :=
  shapeCast S800000 (extractStridedSlice S1x800000 off e h) shapeCasts_S1x800000_S800000

/-- A node number, a negative one counted from the end of the 50000 nodes, as a one-column index table. -/
def nodeIdx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Per edge: the target node's features, then the source node's. -/
def msgIn (x : (⟨S50000x128, .f32⟩ : BufTy).Contents (Elt F)) (s : (⟨S128x16, .f32⟩ : BufTy).Contents (Elt F))
    (e : (⟨S2x800000, .i32⟩ : BufTy).Contents (Elt F)) (b : (⟨S50000, .i32⟩ : BufTy).Contents (Elt F)) :
    (⟨S800000x288, .f32⟩ : BufTy).Contents (Elt F) :=
  concatenate S800000x288 1
    [⟨S800000x144, Host.gather gather_S50000x144_S800000x1_S800000x144_1_0_n_n_0_1_1144 (nodeFeat x s b)
        (nodeIdx (endpoint ![1, 0] slices_S2x800000_S1x800000_1_0 e))⟩,
     ⟨S800000x144, Host.gather gather_S50000x144_S800000x1_S800000x144_1_0_n_n_0_1_1144 (nodeFeat x s b)
        (nodeIdx (endpoint ![0, 0] slices_S2x800000_S1x800000_0_0 e))⟩]
    concatenates_S800000x144_S800000x144_S800000x288_d1

/-- Per edge: the two-layer perceptron of the edge's row. -/
def msgOut (y : (⟨S800000x288, .f32⟩ : BufTy).Contents (Elt F)) (w1 : (⟨S288x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) : (⟨S800000x128, .f32⟩ : BufTy).Contents (Elt F) :=
  addf (Host.dotGeneral dot_S800000x128_S128x128_S800000x128_1_0_0_1_n_n none
      (maximumf (addf (Host.dotGeneral dot_S800000x288_S288x128_S800000x128_1_0_0_1_n_n none y w1)
          (broadcastInDim S800000x128 ![0, 1] bcast_S1x128_S800000x128_0_1 (broadcastInDim S1x128 ![1] bcast_S128_S1x128_1 b1)))
        (broadcastInDim S800000x128 ![] bcast_S_S800000x128 (constant S_ .f32 0x00000000#32))) w2)
    (broadcastInDim S800000x128 ![0, 1] bcast_S1x128_S800000x128_0_1 (broadcastInDim S1x128 ![1] bcast_S128_S1x128_1 b2))

/-- Per node: the sum of the messages of the edges pointing at it (`msg` the 800000 × 128 messages). -/
def aggregate (e : (⟨S2x800000, .i32⟩ : BufTy).Contents (Elt F)) (msg : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (endpoint ![1, 0] slices_S2x800000_S1x800000_1_0 e)) msg

/-- The references the reference's operations write, in order. -/
abbrev written : List (Ref sig .tc) :=
  [main_c, main_v0, main_v1, main_c_0, main_v2, main_v3, main_v4, main_v5, main_v6, main_v7, main_v8, main_v9, main_v10, main_v11,
   main_c_1, main_v12, main_v13, main_c_2, main_v14, main_v15, main_v16, main_v17, main_v18, main_c_3, main_v19, main_v20, main_c_4,
   main_v21, main_v22, main_v23, main_v24, main_v25, main_v26, main_v27, main_v28, main_v29, main_v30, main_call0_cst, main_call0_v0,
   main_v31, main_v32, main_v33, main_v34, main_v35, main_cst, main_v36, main_v37, main_v38]

theorem writes : Writes (ops (F := F)) written := by line_writes

variable (V : Valuation τ sig (Elt F))

/-- The edges' input rows, as the reference leaves them. -/
theorem v26_eq : after ops V (Proc.devRef .tc main_v26)
    = msgIn (V (Proc.devRef .tc main_arg0)) (V (Proc.devRef .tc main_arg1)) (V (Proc.devRef .tc main_arg6)) (V (Proc.devRef .tc main_arg7)) := by
  line_step writes V 32
  line_step writes V 31
  line_step writes V 30
  line_step writes V 29
  line_step writes V 28
  line_step writes V 27
  line_step writes V 26
  line_step writes V 25
  line_step writes V 24
  line_step writes V 23
  line_step writes V 22
  line_step writes V 21
  line_step writes V 20
  line_step writes V 19
  line_step writes V 18
  line_step writes V 17
  line_step writes V 16
  line_step writes V 15
  line_step writes V 14
  line_step writes V 13
  line_step writes V 12
  line_step writes V 11
  line_step writes V 10
  line_step writes V 9
  line_step writes V 8
  line_step writes V 7
  line_step writes V 6
  line_step writes V 5
  line_step writes V 4
  line_step writes V 3
  line_step writes V 2
  line_step writes V 1
  line_step writes V 0
  rw [Writes.arg writes V (r := main_arg0) (by decide), Writes.arg writes V (r := main_arg1) (by decide),
    Writes.arg writes V (r := main_arg6) (by decide), Writes.arg writes V (r := main_arg7) (by decide)]
  rfl

/-- The reference's result, as the function of its arguments. -/
theorem v38_eq : after ops V (Proc.devRef .tc main_v38)
    = aggregate (V (Proc.devRef .tc main_arg6))
        (msgOut (msgIn (V (Proc.devRef .tc main_arg0)) (V (Proc.devRef .tc main_arg1)) (V (Proc.devRef .tc main_arg6)) (V (Proc.devRef .tc main_arg7)))
          (V (Proc.devRef .tc main_arg2)) (V (Proc.devRef .tc main_arg3)) (V (Proc.devRef .tc main_arg4)) (V (Proc.devRef .tc main_arg5))) := by
  line_step writes V 47
  line_step writes V 46
  line_step writes V 45
  line_step writes V 44
  line_step writes V 43
  line_step writes V 42
  line_step writes V 41
  line_step writes V 40
  line_step writes V 39
  line_step writes V 38
  line_step writes V 37
  line_step writes V 36
  line_step writes V 35
  line_step writes V 34
  line_step writes V 33
  line_step writes V 13
  line_step writes V 12
  rw [v26_eq, Writes.arg writes V (r := main_arg2) (by decide), Writes.arg writes V (r := main_arg3) (by decide),
    Writes.arg writes V (r := main_arg4) (by decide), Writes.arg writes V (r := main_arg5) (by decide),
    Writes.arg writes V (r := main_arg6) (by decide)]
  rfl

/-- The arguments keep their contents. -/
theorem arg_eq (r : Ref sig .tc) (hr : r ∉ written) : after ops V (Proc.devRef .tc r) = V (Proc.devRef .tc r) :=
  Writes.arg writes V hr

end Cert.ReferenceIdeal.Glue

end
-- ==== Proof.RefValue.lean ====
/-
  The reference's per-edge messages, read at an entry, over the extended reals: entry `(e, j)` of
  `relu (rows · W1 + b1) · W2 + b2` is the perceptron of `Spec.lean` at row `e`, column `j` — the host's two products
  are plain sums and its biases, broadcast to one row and down the rows, read the bias entry of the column.
-/
import proofs.«165750_j10943576670836_1_alg».proof.Proof.GlueRef
import proofs.«165750_j10943576670836_1_alg».proof.Proof.LibDenseLayer
import proofs.«165750_j10943576670836_1_alg».proof.Proof.Spec

set_option maxRecDepth 16384

noncomputable section

namespace Cert.ReferenceIdeal.RefValue

open Cert.ReferenceIdeal Cert.ReferenceIdeal.Gen Cert.ReferenceIdeal.Glue
open Idealize.ShloMosaic Idealize.ShloMosaic.ValueIdx Cert.EdgeMlp

/-- The reference's message of edge `e`, output `j`. -/
theorem msgOut_apply (y : FVec Ideal S800000x288 .f32) (w1 : FVec Ideal S288x128 .f32) (b1 : FVec Ideal S128 .f32)
    (w2 : FVec Ideal S128x128 .f32) (b2 : FVec Ideal S128 .f32) (e : Fin 800000) (j : Fin 128) :
    msgOut (F := Ideal) y w1 b1 w2 b2 (ix2 e j) = mlp y w1 b1 w2 b2 e j := by
  unfold msgOut
  refine (Cert.LibDense.hostDenseLayer_apply (φ₁ := .f32) (φ₂ := .f32) 800000 128 128 _ _ w2 b2 _ _ e j).trans ?_
  unfold mlp
  refine congrArg (· + b2 (ix1 j)) (Finset.sum_congr rfl fun k _ => ?_)
  refine congrArg (· * w2 (ix2 k j)) ?_
  unfold hiddenUnit
  refine congrArg₂ max ?_ ?_
  · exact Cert.LibDense.hostDenseLayer_apply (φ₁ := .f32) (φ₂ := .f32) 800000 288 128 _ y w1 b1 _ _ e k
  · exact Cert.LibHR.bcastScalar_apply _ _ _

end Cert.ReferenceIdeal.RefValue

end
-- ==== Proof.Bridge.lean ====
/-
  The two idealized programs compute one function.

  Both aggregate, per node, the messages of the edges pointing at it, with the same aggregation of the same target-node
  row.  The kernel's message array is the perceptron of the rows the host gathered for it; the reference's is the same
  perceptron, spelt with the host's products, of the rows it gathers itself.  The gathered rows agree — the kernel's
  host code rounds the node features and the weights to bfloat16 first, which changes nothing over the extended
  reals — so the messages agree entry by entry, and no law of arithmetic is needed beyond that.
-/
import proofs.«165750_j10943576670836_1_alg».proof.Proof.ResultIdeal
import proofs.«165750_j10943576670836_1_alg».proof.Proof.RefValue

set_option maxRecDepth 16384

noncomputable section

namespace Cert.Bridge

open Idealize.ShloMosaic Idealize.ShloMosaic.TcCoe Idealize.ShloMosaic.ValueIdx Idealize.SL.Sem Cert.EdgeMlp

/-- The two programs' aggregations are one function. -/
theorem aggregate_eq (e : Cert.KernelIdeal.S2x800000.Idx → BitVec 32) (msg : Cert.KernelIdeal.S800000x128.Idx → EReal) :
    Cert.KernelIdeal.Result.aggregate (F := Ideal) e msg = Cert.ReferenceIdeal.Glue.aggregate (F := Ideal) e msg := rfl

/-- The rows the two programs gather are the same: rounding the node features to bfloat16 is the identity here. -/
theorem msgIn_eq (x : Cert.KernelIdeal.S50000x128.Idx → EReal) (s : Cert.KernelIdeal.S128x16.Idx → EReal)
    (e : Cert.KernelIdeal.S2x800000.Idx → BitVec 32) (b : Cert.KernelIdeal.S50000.Idx → BitVec 32) :
    (Cert.KernelIdeal.Glue.msgIn (F := Ideal) x s e b : Cert.KernelIdeal.S800000x288.Idx → EReal)
      = Cert.ReferenceIdeal.Glue.msgIn (F := Ideal) x s e b := rfl

open Cert.KernelIdeal in
/-- THE BRIDGE: the kernel program's result is the reference's function of the same arguments. -/
theorem result_bridge (m : (ℓ : Loc nD τ sig) → Buf (Elt Ideal) ℓ) (c : Dev nD) :
    Cert.KernelIdeal.Result.aggregate (F := Ideal) (m ((c.tc : Thread nD τ).loc main_arg6)) (Cert.KernelIdeal.Final.msgArr m c)
      = Cert.ReferenceIdeal.Glue.aggregate (F := Ideal) (m ((c.tc : Thread nD τ).loc main_arg6))
          (Cert.ReferenceIdeal.Glue.msgOut (F := Ideal)
            (Cert.ReferenceIdeal.Glue.msgIn (F := Ideal) (m ((c.tc : Thread nD τ).loc main_arg0)) (m ((c.tc : Thread nD τ).loc main_arg1))
              (m ((c.tc : Thread nD τ).loc main_arg6)) (m ((c.tc : Thread nD τ).loc main_arg7)))
            (m ((c.tc : Thread nD τ).loc main_arg2)) (m ((c.tc : Thread nD τ).loc main_arg3))
            (m ((c.tc : Thread nD τ).loc main_arg4)) (m ((c.tc : Thread nD τ).loc main_arg5))) := by
  rw [aggregate_eq]
  refine congrArg (Cert.ReferenceIdeal.Glue.aggregate (F := Ideal) _) (funext fun i => ?_)
  have e : i = ix2 (⟨(i 0).val, (i 0).isLt⟩ : Fin 800000) (⟨(i 1).val, (i 1).isLt⟩ : Fin 128) :=
    funext fun a => match a with
      | ⟨0, _⟩ => rfl
      | ⟨1, _⟩ => rfl
  refine Eq.trans ?_ (congrArg _ e.symm)
  rw [Cert.ReferenceIdeal.RefValue.msgOut_apply]
  unfold Cert.KernelIdeal.Final.msgArr
  have h27 := (Cert.KernelIdeal.Result.V_v27 m c).trans (msgIn_eq _ _ _ _)
  exact mlp_congr _ _ _ _ (fun k' => congrFun h27 _) (Cert.KernelIdeal.Result.V_v28 m c) (Cert.KernelIdeal.Gen.V_main_arg3 m c)
    (Cert.KernelIdeal.Result.V_v29 m c) (Cert.KernelIdeal.Gen.V_main_arg5 m c) _

end Cert.Bridge

end
-- ==== Proof.lean ====
/-
  Message passing with add-aggregation: the edge perceptron as a Pallas kernel against the plain jnp reference.

  Both programs give every node its features (its own 128 numbers, then the 16 of its graph), gather, per edge, the
  target node's features followed by the source node's (288 numbers), push each such row through the perceptron
  `relu (row · W1 + b1) · W2 + b2`, and add each edge's 128 outputs into its target node's row.  The kernel program
  does the perceptron in a Pallas kernel over slabs of 4096 edges, with operands rounded to bfloat16; the reference does
  it with two host products.

  * The frames.  The word-level kernel program: a run of the pipeline with relational proof data (the body leaves its
    inputs as found; nothing is said of its output): `Cert.Kernel.Run.frame`.  The idealized kernel program: the run
    whose proof data name what each slab's output buffer holds on the rows inside the edge array — possible because a
    row of the body's output depends on the same row of its input alone, so the unnamed words the last, overhanging
    slab's fetch leaves past the array's end never reach a row that is written back.  The reference: its run as a line
    of host operations.
  * `preserves`: the ideal pass rewrote nothing.
  * `algebraic`.  Over the extended reals rounding to bfloat16 is the identity, the kernel's products into a zero
    accumulator and the host's products are the same sums, and both programs clamp at the same zero.  So the kernel's
    message array, slab by slab, is the perceptron of the gathered rows (`Cert.KernelIdeal.Final.final5`), the
    reference's messages are the same perceptron of the same rows (`Cert.ReferenceIdeal.RefValue.msgOut_apply`), and
    the two results are one aggregation of one array (`Cert.Bridge.result_bridge`).  The equality is term by term:
    neither finiteness of the inputs nor any law of arithmetic is used.
-/
import proofs.«165750_j10943576670836_1_alg».proof.Defs
import proofs.«165750_j10943576670836_1_alg».proof.Proof.Gen.Kernel
import proofs.«165750_j10943576670836_1_alg».proof.Proof.Gen.KernelIdeal
import proofs.«165750_j10943576670836_1_alg».proof.Proof.Gen.ReferenceIdeal
import proofs.«165750_j10943576670836_1_alg».proof.Proof.Gen.Pre_finite_inputs
import proofs.«165750_j10943576670836_1_alg».proof.Proof.FrameKernel
import proofs.«165750_j10943576670836_1_alg».proof.Proof.Bridge

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ =>
  (θ_run Cert.KernelIdeal.defs _ _).mono (fun r h c => Cert.KernelIdeal.Result.args_kept m r h c)
    (Cert.KernelIdeal.Run.run_main m ρ)

open Cert.ReferenceIdeal in
theorem frame_ri : Cert.frame_ReferenceIdeal := fun m ρ _ =>
  (θ_run Cert.ReferenceIdeal.defs _ _).mono (fun r h c =>
    ⟨(h c main_arg0).trans (Glue.arg_eq _ main_arg0 (by decide)), (h c main_arg1).trans (Glue.arg_eq _ main_arg1 (by decide)),
     (h c main_arg2).trans (Glue.arg_eq _ main_arg2 (by decide)), (h c main_arg3).trans (Glue.arg_eq _ main_arg3 (by decide)),
     (h c main_arg4).trans (Glue.arg_eq _ main_arg4 (by decide)), (h c main_arg5).trans (Glue.arg_eq _ main_arg5 (by decide)),
     (h c main_arg6).trans (Glue.arg_eq _ main_arg6 (by decide)), (h c main_arg7).trans (Glue.arg_eq _ main_arg7 (by decide))⟩)
    (ValueP.run_after (F := Ideal) m ρ)

theorem preserves : Cert.preserves_Kernel_KernelIdeal := trivial

open Cert.ReferenceIdeal Idealize.ShloMosaic.StableHlo in
/-- The reference's result buffer, from its launch memory. -/
theorem ref_result (m' : (ℓ : Loc nD τ sig) → Buf (Elt Ideal) ℓ) (c : Dev nD) :
    after ValueP.ops (launchContents m' c) (Proc.devRef .tc main_v38)
      = Glue.aggregate (F := Ideal) (m' ((c.tc : Thread nD τ).loc main_arg6))
          (Glue.msgOut (F := Ideal)
            (Glue.msgIn (F := Ideal) (m' ((c.tc : Thread nD τ).loc main_arg0)) (m' ((c.tc : Thread nD τ).loc main_arg1))
              (m' ((c.tc : Thread nD τ).loc main_arg6)) (m' ((c.tc : Thread nD τ).loc main_arg7)))
            (m' ((c.tc : Thread nD τ).loc main_arg2)) (m' ((c.tc : Thread nD τ).loc main_arg3))
            (m' ((c.tc : Thread nD τ).loc main_arg4)) (m' ((c.tc : Thread nD τ).loc main_arg5))) :=
  Glue.v38_eq _

/-- From memories that agree on the arguments both idealized programs end with the aggregation of the edges'
    messages: the kernel program's message array is the perceptron of the gathered rows slab by slab, the reference's
    the same perceptron of the same rows. -/
theorem algebraic : Cert.algebraic_KernelIdeal_ReferenceIdeal := by
  intro m ρ m' ρ' _ hagree
  refine ⟨fun c => Cert.KernelIdeal.Result.aggregate (F := Ideal)
      (m ((c.tc : Thread Cert.KernelIdeal.nD Cert.KernelIdeal.τ).loc Cert.KernelIdeal.main_arg6)) (Cert.KernelIdeal.Final.msgArr m c), ?_, ?_⟩
  · exact (θ_run Cert.KernelIdeal.defs _ _).mono
      (fun r h c => ⟨Cert.KernelIdeal.Result.result_kept m r h c, Cert.KernelIdeal.Result.args_kept m r h c⟩)
      (Cert.KernelIdeal.Run.run_main m ρ)
  · refine (θ_run Cert.ReferenceIdeal.defs _ _).mono (fun r h c => ⟨?_, ?_⟩) (Cert.ReferenceIdeal.ValueP.run_after (F := Ideal) m' ρ')
    · refine (h c Cert.ReferenceIdeal.main_v38).trans ((ref_result m' c).trans ?_)
      obtain ⟨a0, a1, a2, a3, a4, a5, a6, a7⟩ := hagree c
      rw [a0, a1, a2, a3, a4, a5, a6, a7]
      exact (Cert.Bridge.result_bridge m c).symm
    · exact ⟨(h c Cert.ReferenceIdeal.main_arg0).trans (Cert.ReferenceIdeal.Glue.arg_eq _ Cert.ReferenceIdeal.main_arg0 (by decide)),
        (h c Cert.ReferenceIdeal.main_arg1).trans (Cert.ReferenceIdeal.Glue.arg_eq _ Cert.ReferenceIdeal.main_arg1 (by decide)),
        (h c Cert.ReferenceIdeal.main_arg2).trans (Cert.ReferenceIdeal.Glue.arg_eq _ Cert.ReferenceIdeal.main_arg2 (by decide)),
        (h c Cert.ReferenceIdeal.main_arg3).trans (Cert.ReferenceIdeal.Glue.arg_eq _ Cert.ReferenceIdeal.main_arg3 (by decide)),
        (h c Cert.ReferenceIdeal.main_arg4).trans (Cert.ReferenceIdeal.Glue.arg_eq _ Cert.ReferenceIdeal.main_arg4 (by decide)),
        (h c Cert.ReferenceIdeal.main_arg5).trans (Cert.ReferenceIdeal.Glue.arg_eq _ Cert.ReferenceIdeal.main_arg5 (by decide)),
        (h c Cert.ReferenceIdeal.main_arg6).trans (Cert.ReferenceIdeal.Glue.arg_eq _ Cert.ReferenceIdeal.main_arg6 (by decide)),
        (h c Cert.ReferenceIdeal.main_arg7).trans (Cert.ReferenceIdeal.Glue.arg_eq _ Cert.ReferenceIdeal.main_arg7 (by decide))⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
